-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x128 .f32) (main_arg3 : FVec F S64x128 .f32) (main_arg4 : FVec F S128 .f32) (main_arg5 : FVec F S128x64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 53
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S64x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S128x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its RESULT named. Every weakly fair execution of the program — two host stretches,
  each followed by a tiled region of twenty row blocks — terminates without a fault; the eight argument arrays end as
  they were launched, and the result array ends holding exactly what the second region's write-backs leave in it,
  block after block, over the contents the second host stretch produced.
-/
import proofs.«132774_j25426206392892_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array is the last region's output window: its contents at the end are the fold of that region's
    write-backs. -/
theorem result_eq (c : Dev nD) :
    W4 m ρ c (Proc.devRef .tc main_v34) = (dat1 (V3 m ρ) c).arrAt 6 cfg1.N :=
  W4_arr m ρ c 6

set_option backward.isDefEq.respectTransparency.types false in
/-- The run: termination without a fault, the result at the contents of the last boundary, the arguments unchanged. -/
theorem run : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  The mathematics shared by both programs, over the extended reals, with no program in sight.

  One layer of the network takes, for every node `i`, the sum `agg i` of its in-neighbours' feature rows and the
  number `cnt i` of those neighbours, and returns
      mean i · Wl + x i · Wr + b,        mean i = agg i / max (cnt i) 1.
  The two programs arrange this differently. One multiplies `agg i` by the reciprocal `1 / max (cnt i) 1` (computed
  once per node) and adds the bias last; the other divides by `max (cnt i) 1` and adds the bias between the two
  products. The divisor is at least 1, hence never zero, and away from zero the extended reals' quotient `a / c` IS
  the product `a · c⁻¹` — at infinite `a` and infinite `c` alike — so the two arrangements agree entry by entry with
  no finiteness assumption; the bias moves by commutativity of the sum.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Sage

open Idealize.ShloMosaic Idealize.ShloMosaic.ValueIdx

/-- A count clamped below by one is not zero. -/
theorem max_one_ne_zero (x : EReal) : max x 1 ≠ 0 :=
  ne_of_gt (lt_of_lt_of_le zero_lt_one (le_max_right x 1))

/-- Away from zero, multiplying by the reciprocal is dividing: both are `a · c⁻¹`. -/
theorem mul_recip (a c : EReal) (hc : c ≠ 0) : a * Ideal.div 1 c = Ideal.div a c := by
  unfold Ideal.div
  rw [if_neg hc, if_neg hc, one_mul]

/-- One entry of a layer in the two arrangements: scale-then-multiply with the bias last, against
    divide-then-multiply with the bias in the middle. -/
theorem entry_eq {K : Type} [Fintype K] (A X Wl Wr : K → EReal) (cnt b : EReal) :
    ((∑ k, (A k * Ideal.div 1 (max cnt 1)) * Wl k) + ∑ k, X k * Wr k) + b
      = ((∑ k, Ideal.div (A k) (max cnt 1) * Wl k) + b) + ∑ k, X k * Wr k := by
  simp only [mul_recip _ _ (max_one_ne_zero cnt)]
  exact add_right_comm _ _ _

/-- The dense transform of a layer as ONE function of whole arrays, in the scale-by-reciprocal arrangement:
    entry `(i, j)` is `∑ₖ (agg i k · inv i) · wl k j + ∑ₖ x i k · wr k j + b j`, where `inv` is a column. -/
def dense (n fi fo : Nat) (agg : (⟨2, ![n, fi]⟩ : Shape).Idx → EReal) (inv : (⟨2, ![n, 1]⟩ : Shape).Idx → EReal)
    (x : (⟨2, ![n, fi]⟩ : Shape).Idx → EReal) (wl wr : (⟨2, ![fi, fo]⟩ : Shape).Idx → EReal)
    (b : (⟨1, ![fo]⟩ : Shape).Idx → EReal) : (⟨2, ![n, fo]⟩ : Shape).Idx → EReal :=
  fun i => ((∑ k : Fin fi, (agg (ix2 (i 0) k) * inv (ix2 (i 0) (0 : Fin 1))) * wl (ix2 k (i 1)))
      + ∑ k : Fin fi, x (ix2 (i 0) k) * wr (ix2 k (i 1))) + b (ix1 (i 1))

/-- The same followed by the rectifier `max · 0`. -/
def denseRelu (n fi fo : Nat) (agg : (⟨2, ![n, fi]⟩ : Shape).Idx → EReal) (inv : (⟨2, ![n, 1]⟩ : Shape).Idx → EReal)
    (x : (⟨2, ![n, fi]⟩ : Shape).Idx → EReal) (wl wr : (⟨2, ![fi, fo]⟩ : Shape).Idx → EReal)
    (b : (⟨1, ![fo]⟩ : Shape).Idx → EReal) : (⟨2, ![n, fo]⟩ : Shape).Idx → EReal :=
  fun i => max (dense n fi fo agg inv x wl wr b i) 0

end Cert.Sage

end
-- ==== Proof.Payload.lean ====
/-
  What each region's body stores, read at one entry of its row block, over the extended reals.

  A body loads a block of aggregated rows, the matching column of reciprocal counts, the matching block of node
  features, the two weight matrices and the bias; it scales each aggregated row by that row's reciprocal count,
  multiplies by the left weights, adds the features times the right weights, adds the bias along rows, and (first
  layer only) clamps below at zero. Format changes are the identity on extended reals, a product into a zero
  accumulator is the plain sum over the contracted axis, and the broadcasts read a column or a row; so entry
  `(p, q)` of the stored block is
      ∑ₖ (agg p k · inv p) · wl k q  +  ∑ₖ x p k · wr k q  +  b q        (clamped at zero in the first layer).
-/
import proofs.«132774_j25426206392892_1_alg».proof.Proof.Gen.KernelIdeal.Skeleton
import proofs.«132774_j25426206392892_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The matrix product of region 0: `[5000, 64] × [64, 128]`, one contracted axis -/

theorem lhs0_0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs0_1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem rhs0_0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem rhs0_1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Into a zero accumulator the matrix unit's product at `(p, q)` is the plain sum `∑ₖ l p k · r k q`. -/
theorem mm0_apply (l : FVec Ideal S5000x64 .bf16) (r : FVec Ideal S64x128 .bf16) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) := by
  refine (Ideal.matmul_constant_zero_apply dot_S5000x64_S64x128_S5000x128_1_0_0_1_n_n none l r (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs0_0 _ _
    | ⟨1, _⟩ => exact (lhs0_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-! ### The matrix product of region 1: `[5000, 128] × [128, 64]`, one contracted axis -/

theorem lhs1_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs1_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs1_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Into a zero accumulator the matrix unit's product at `(p, q)` is the plain sum `∑ₖ l p k · r k q`. -/
theorem mm1_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-! ### The stored blocks at an entry -/

/-- Region 0's stored block at `(p, q)`. -/
theorem pay0_apply (x0 : Vec Ideal S5000x64 .f32) (x1 : Vec Ideal S5000x1 .f32) (x2 : Vec Ideal S5000x64 .f32)
    (x3 x4 : Vec Ideal S64x128 .f32) (x5 : Vec Ideal S128 .f32) (p : Fin 5000) (q : Fin 128) :
    k0_pay1 (F := Ideal) x0 x1 x2 x3 x4 x5 (ix2 p q)
      = max (((∑ k : Fin 64, (x0 (ix2 p k) * x1 (ix2 p (0 : Fin 1))) * x3 (ix2 k q))
          + ∑ k : Fin 64, x2 (ix2 p k) * x4 (ix2 k q)) + x5 (ix1 q)) 0 := by
  unfold k0_pay1
  have eb : broadcastTo S5000x128 (shapeCast S1x128 x5 shapeCasts_S128_S1x128) broadcasts_S1x128_S5000x128 (ix2 p q) = x5 (ix1 q) :=
    (broadcastTo_1b_ab_apply _ _ p q).trans (shapeCast_a_1a_apply x5 _ 0 q)
  have ec : ∀ k : Fin 64, broadcastTo S5000x64 (shapeCast S5000x1 x1 shapeCasts_S5000x1_S5000x1) broadcasts_S5000x1_S5000x64 (ix2 p k)
      = x1 (ix2 p (0 : Fin 1)) := fun k => by
    rw [shapeCast_self]; exact broadcastTo_a1_ab_apply x1 _ p k
  have e0 : shapeCast S5000x64 x0 shapeCasts_S5000x64_S5000x64 = x0 := shapeCast_self _ _
  show max ((matmul (F := Ideal) dot_S5000x64_S64x128_S5000x128_1_0_0_1_n_n none _ _ _ (ix2 p q)
      + matmul (F := Ideal) dot_S5000x64_S64x128_S5000x128_1_0_0_1_n_n none _ _ _ (ix2 p q))
      + broadcastTo S5000x128 (shapeCast S1x128 x5 shapeCasts_S128_S1x128) broadcasts_S1x128_S5000x128 (ix2 p q))
      (Ideal.ofBits .f32 0x00000000#32) = _
  rw [mm0_apply, mm0_apply, eb, Ideal.ofBits_zero_f32]
  refine congrArg (fun s => max s 0) (congrArg (· + x5 (ix1 q)) ?_)
  refine congrArg₂ (· + ·) (Finset.sum_congr rfl fun k _ => ?_) rfl
  show (shapeCast S5000x64 x0 shapeCasts_S5000x64_S5000x64 (ix2 p k)
      * broadcastTo S5000x64 (shapeCast S5000x1 x1 shapeCasts_S5000x1_S5000x1) broadcasts_S5000x1_S5000x64 (ix2 p k)) * x3 (ix2 k q) = _
  rw [e0, ec k]

/-- Region 1's stored block at `(p, q)`: the same without the clamp. -/
theorem pay1_apply (x0 : Vec Ideal S5000x128 .f32) (x1 : Vec Ideal S5000x1 .f32) (x2 : Vec Ideal S5000x128 .f32)
    (x3 x4 : Vec Ideal S128x64 .f32) (x5 : Vec Ideal S64 .f32) (p : Fin 5000) (q : Fin 64) :
    k1_pay1 (F := Ideal) x0 x1 x2 x3 x4 x5 (ix2 p q)
      = ((∑ k : Fin 128, (x0 (ix2 p k) * x1 (ix2 p (0 : Fin 1))) * x3 (ix2 k q))
          + ∑ k : Fin 128, x2 (ix2 p k) * x4 (ix2 k q)) + x5 (ix1 q) := by
  unfold k1_pay1
  have eb : broadcastTo S5000x64 (shapeCast S1x64 x5 shapeCasts_S64_S1x64) broadcasts_S1x64_S5000x64 (ix2 p q) = x5 (ix1 q) :=
    (broadcastTo_1b_ab_apply _ _ p q).trans (shapeCast_a_1a_apply x5 _ 0 q)
  have ec : ∀ k : Fin 128, broadcastTo S5000x128 (shapeCast S5000x1 x1 shapeCasts_S5000x1_S5000x1) broadcasts_S5000x1_S5000x128 (ix2 p k)
      = x1 (ix2 p (0 : Fin 1)) := fun k => by
    rw [shapeCast_self]; exact broadcastTo_a1_ab_apply x1 _ p k
  have e0 : shapeCast S5000x128 x0 shapeCasts_S5000x128_S5000x128 = x0 := shapeCast_self _ _
  have e2 : shapeCast S5000x128 x2 shapeCasts_S5000x128_S5000x128 = x2 := shapeCast_self _ _
  show (matmul (F := Ideal) dot_S5000x128_S128x64_S5000x64_1_0_0_1_n_n none _ _ _ (ix2 p q)
      + matmul (F := Ideal) dot_S5000x128_S128x64_S5000x64_1_0_0_1_n_n none _ _ _ (ix2 p q))
      + broadcastTo S5000x64 (shapeCast S1x64 x5 shapeCasts_S64_S1x64) broadcasts_S1x64_S5000x64 (ix2 p q) = _
  rw [mm1_apply, mm1_apply, eb]
  refine congrArg (· + x5 (ix1 q)) ?_
  refine congrArg₂ (· + ·) (Finset.sum_congr rfl fun k _ => ?_) (Finset.sum_congr rfl fun k _ => ?_)
  · show (shapeCast S5000x128 x0 shapeCasts_S5000x128_S5000x128 (ix2 p k)
        * broadcastTo S5000x128 (shapeCast S5000x1 x1 shapeCasts_S5000x1_S5000x1) broadcasts_S5000x1_S5000x128 (ix2 p k)) * x3 (ix2 k q) = _
    rw [e0, ec k]
  · show shapeCast S5000x128 x2 shapeCasts_S5000x128_S5000x128 (ix2 p k) * x4 (ix2 k q) = _
    rw [e2]

end Cert.KernelIdeal.Payload

end
-- ==== Proof.Blocks0.lean ====
/-
  From blocks to the array, first region. The region walks twenty grid points; point `t` loads rows
  `5000·t … 5000·t + 4999` of the aggregated features, of the reciprocal-count column and of the node features, the
  whole of both weight matrices and of the bias, and writes back rows `5000·t …` of the output. Each written block is
  the matching rows of ONE whole-array function — the rectified dense transform of the arrays the region finds — and
  the twenty blocks tile the output, so the output array ends holding that function.
-/
import proofs.«132774_j25426206392892_1_alg».proof.Proof.Gen.KernelIdeal.Frame
import proofs.«132774_j25426206392892_1_alg».proof.Proof.Payload
import Idealize.ShloMosaic.Lib.Pipeline.Value
import Idealize.ShloMosaic.Lib.ValueIdx

set_option maxRecDepth 16384

noncomputable section

open scoped BigOperators

namespace Cert.KernelIdeal.Blocks0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload

-- the buffer contents when the region is entered: arbitrary, at the extended reals
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0: `[100000, 64] → [100000, 128]`, twenty blocks of 5000 rows -/

/-- The array the region's output ends holding, as one function of the arrays the region finds. -/
abbrev G0 (c : Dev nD) : S100000x128.Idx → EReal :=
  Cert.Sage.denseRelu 100000 64 128 (V c main_v22) (V c main_v12) (V c main_arg0) (V c main_arg2) (V c main_arg3) (V c main_arg4)

/-- The printed index maps, decided over the twenty grid points: the three row-blocked inputs move with the output
    along rows and sit at column block 0; the weights and the bias are whole; the output's row block is the point. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 19 :=
  (by decide +kernel : ∀ t : Fin grid0.N, _)

/-- Every row block is some point's. -/
theorem onto0 : ∀ b : Fin 20, ∃ t : Fin cfg0.N, win0_6.index t = ![b.val, 0] :=
  (by decide +kernel : ∀ b : Fin 20, ∃ t : Fin grid0.N, win0_6.index t = ![b.val, 0])

/-- What point `t` writes back is block `t` of `G0`: entry `(p, q)` of the stored block is the layer's entry at
    row `5000·t + p`, because every block the body loaded is the matching rows (or the whole) of its array. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S5000x1) hz2, View.ld_unit_zero (S := S64x128) hz2,
    View.ld_unit_zero (S := S128) hz1]
  obtain ⟨f00, f01, f10, f11, f20, f21, f30, f31, f40, f41, f50, f61, fle⟩ := idx_facts0 t
  funext j
  obtain ⟨p, q, rfl⟩ : ∃ (p : Fin 5000) (q : Fin 128), j = ix2 p q := ⟨j 0, j 1, eq_ix2 j⟩
  refine (pay0_apply (iblk0 V c 0 t) (iblk0 V c 1 t) (iblk0 V c 2 t) (iblk0 V c 3 t) (iblk0 V c 4 t) (iblk0 V c 5 t) p q).trans ?_
  have hp : p.val < 5000 := p.isLt
  have hr : win0_6.index t (0 : Fin 2) * 5000 + p.val < 100000 := by omega
  have he : ((cfg0.win 6).blk t).view.emb (ix2 p q) = ix2 (⟨win0_6.index t (0 : Fin 2) * 5000 + p.val, hr⟩ : Fin 100000) q := by
    funext a; apply Fin.ext
    match a with
    | ⟨0, _⟩ => show win0_6.index t (0 : Fin 2) * 5000 + 1 * p.val = win0_6.index t (0 : Fin 2) * 5000 + p.val; omega
    | ⟨1, _⟩ => show win0_6.index t (1 : Fin 2) * 128 + 1 * q.val = q.val; omega
  have h0 : ∀ k : Fin 64, iblk0 V c 0 t (ix2 p k) = V c main_v22 (ix2 (⟨win0_6.index t (0 : Fin 2) * 5000 + p.val, hr⟩ : Fin 100000) k) := fun k => by
    show V c main_v22 (((cfg0.win 0).blk t).view.emb (ix2 p k)) = _
    refine congrArg _ (funext fun a => Fin.ext ?_)
    match a with
    | ⟨0, _⟩ => show win0_0.index t (0 : Fin 2) * 5000 + 1 * p.val = win0_6.index t (0 : Fin 2) * 5000 + p.val; omega
    | ⟨1, _⟩ => show win0_0.index t (1 : Fin 2) * 64 + 1 * k.val = k.val; omega
  have h1 : iblk0 V c 1 t (ix2 p (0 : Fin 1)) = V c main_v12 (ix2 (⟨win0_6.index t (0 : Fin 2) * 5000 + p.val, hr⟩ : Fin 100000) (0 : Fin 1)) := by
    show V c main_v12 (((cfg0.win 1).blk t).view.emb (ix2 p (0 : Fin 1))) = _
    refine congrArg _ (funext fun a => Fin.ext ?_)
    match a with
    | ⟨0, _⟩ => show win0_1.index t (0 : Fin 2) * 5000 + 1 * p.val = win0_6.index t (0 : Fin 2) * 5000 + p.val; omega
    | ⟨1, _⟩ => show win0_1.index t (1 : Fin 2) * 1 + 1 * 0 = 0; omega
  have h2 : ∀ k : Fin 64, iblk0 V c 2 t (ix2 p k) = V c main_arg0 (ix2 (⟨win0_6.index t (0 : Fin 2) * 5000 + p.val, hr⟩ : Fin 100000) k) := fun k => by
    show V c main_arg0 (((cfg0.win 2).blk t).view.emb (ix2 p k)) = _
    refine congrArg _ (funext fun a => Fin.ext ?_)
    match a with
    | ⟨0, _⟩ => show win0_2.index t (0 : Fin 2) * 5000 + 1 * p.val = win0_6.index t (0 : Fin 2) * 5000 + p.val; omega
    | ⟨1, _⟩ => show win0_2.index t (1 : Fin 2) * 64 + 1 * k.val = k.val; omega
  have h3 : ∀ k : Fin 64, iblk0 V c 3 t (ix2 k q) = V c main_arg2 (ix2 k q) := fun k => by
    show V c main_arg2 (((cfg0.win 3).blk t).view.emb (ix2 k q)) = _
    refine congrArg _ (funext fun a => Fin.ext ?_)
    match a with
    | ⟨0, _⟩ => show win0_3.index t (0 : Fin 2) * 64 + 1 * k.val = k.val; omega
    | ⟨1, _⟩ => show win0_3.index t (1 : Fin 2) * 128 + 1 * q.val = q.val; omega
  have h4 : ∀ k : Fin 64, iblk0 V c 4 t (ix2 k q) = V c main_arg3 (ix2 k q) := fun k => by
    show V c main_arg3 (((cfg0.win 4).blk t).view.emb (ix2 k q)) = _
    refine congrArg _ (funext fun a => Fin.ext ?_)
    match a with
    | ⟨0, _⟩ => show win0_4.index t (0 : Fin 2) * 64 + 1 * k.val = k.val; omega
    | ⟨1, _⟩ => show win0_4.index t (1 : Fin 2) * 128 + 1 * q.val = q.val; omega
  have h5 : iblk0 V c 5 t (ix1 q) = V c main_arg4 (ix1 q) := by
    show V c main_arg4 (((cfg0.win 5).blk t).view.emb (ix1 q)) = _
    refine congrArg _ (funext fun a => Fin.ext ?_)
    match a with
    | ⟨0, _⟩ => show win0_5.index t (0 : Fin 1) * 128 + 1 * q.val = q.val; omega
  show _ = G0 V c (((cfg0.win 6).blk t).view.emb (ix2 p q))
  rw [he]
  simp only [h0, h1, h2, h3, h4, h5]
  rfl

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- Every entry of the output array lies in the block of the point `row / 5000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the region: the layer's function of the arrays the region found. -/
theorem final0 (c : Dev nD) : (dat0 V c).arrAt 6 cfg0.N = G0 V c :=
  (dat0 V c).arrAt_eq_of_cover 6 (G0 V c) (fun t _ => flushed0_eq V c t) (cover0)

end Cert.KernelIdeal.Blocks0

end
-- ==== Proof.Blocks1.lean ====
/-
  From blocks to the array, second region. The same walk over twenty blocks of 5000 rows, one layer later: point `t`
  loads rows `5000·t …` of the second aggregation, of the reciprocal-count column and of the first layer's output,
  the whole of the second layer's weights and bias, and writes back rows `5000·t …` of the result. Each written block
  is the matching rows of the dense transform (no rectifier here) of the arrays the region finds, and the blocks tile
  the result array.
-/
import proofs.«132774_j25426206392892_1_alg».proof.Proof.Gen.KernelIdeal.Frame
import proofs.«132774_j25426206392892_1_alg».proof.Proof.Payload
import Idealize.ShloMosaic.Lib.Pipeline.Value
import Idealize.ShloMosaic.Lib.ValueIdx

set_option maxRecDepth 16384

noncomputable section

open scoped BigOperators

namespace Cert.KernelIdeal.Blocks1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload

-- the buffer contents when the region is entered: arbitrary, at the extended reals
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 1: `[100000, 128] → [100000, 64]`, twenty blocks of 5000 rows -/

/-- The array the region's output ends holding, as one function of the arrays the region finds. -/
abbrev G1 (c : Dev nD) : S100000x64.Idx → EReal :=
  Cert.Sage.dense 100000 128 64 (V c main_v33) (V c main_v12) (V c main_v23) (V c main_arg5) (V c main_arg6) (V c main_arg7)

/-- The printed index maps, decided over the twenty grid points: the three row-blocked inputs move with the output
    along rows and sit at column block 0; the weights and the bias are whole; the output's row block is the point. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (1 : Fin 2) = 0 ∧ win1_6.index t (0 : Fin 2) ≤ 19 :=
  (by decide +kernel : ∀ t : Fin grid1.N, _)

/-- Every row block is some point's. -/
theorem onto1 : ∀ b : Fin 20, ∃ t : Fin cfg1.N, win1_6.index t = ![b.val, 0] :=
  (by decide +kernel : ∀ b : Fin 20, ∃ t : Fin grid1.N, win1_6.index t = ![b.val, 0])

/-- What point `t` writes back is block `t` of `G1`: entry `(p, q)` of the stored block is the layer's entry at
    row `5000·t + p`, because every block the body loaded is the matching rows (or the whole) of its array. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2, View.ld_unit_zero (S := S128x64) hz2,
    View.ld_unit_zero (S := S64) hz1]
  obtain ⟨f00, f01, f10, f11, f20, f21, f30, f31, f40, f41, f50, f61, fle⟩ := idx_facts1 t
  funext j
  obtain ⟨p, q, rfl⟩ : ∃ (p : Fin 5000) (q : Fin 64), j = ix2 p q := ⟨j 0, j 1, eq_ix2 j⟩
  refine (pay1_apply (iblk1 V c 0 t) (iblk1 V c 1 t) (iblk1 V c 2 t) (iblk1 V c 3 t) (iblk1 V c 4 t) (iblk1 V c 5 t) p q).trans ?_
  have hp : p.val < 5000 := p.isLt
  have hr : win1_6.index t (0 : Fin 2) * 5000 + p.val < 100000 := by omega
  have he : ((cfg1.win 6).blk t).view.emb (ix2 p q) = ix2 (⟨win1_6.index t (0 : Fin 2) * 5000 + p.val, hr⟩ : Fin 100000) q := by
    funext a; apply Fin.ext
    match a with
    | ⟨0, _⟩ => show win1_6.index t (0 : Fin 2) * 5000 + 1 * p.val = win1_6.index t (0 : Fin 2) * 5000 + p.val; omega
    | ⟨1, _⟩ => show win1_6.index t (1 : Fin 2) * 64 + 1 * q.val = q.val; omega
  have h0 : ∀ k : Fin 128, iblk1 V c 0 t (ix2 p k) = V c main_v33 (ix2 (⟨win1_6.index t (0 : Fin 2) * 5000 + p.val, hr⟩ : Fin 100000) k) := fun k => by
    show V c main_v33 (((cfg1.win 0).blk t).view.emb (ix2 p k)) = _
    refine congrArg _ (funext fun a => Fin.ext ?_)
    match a with
    | ⟨0, _⟩ => show win1_0.index t (0 : Fin 2) * 5000 + 1 * p.val = win1_6.index t (0 : Fin 2) * 5000 + p.val; omega
    | ⟨1, _⟩ => show win1_0.index t (1 : Fin 2) * 128 + 1 * k.val = k.val; omega
  have h1 : iblk1 V c 1 t (ix2 p (0 : Fin 1)) = V c main_v12 (ix2 (⟨win1_6.index t (0 : Fin 2) * 5000 + p.val, hr⟩ : Fin 100000) (0 : Fin 1)) := by
    show V c main_v12 (((cfg1.win 1).blk t).view.emb (ix2 p (0 : Fin 1))) = _
    refine congrArg _ (funext fun a => Fin.ext ?_)
    match a with
    | ⟨0, _⟩ => show win1_1.index t (0 : Fin 2) * 5000 + 1 * p.val = win1_6.index t (0 : Fin 2) * 5000 + p.val; omega
    | ⟨1, _⟩ => show win1_1.index t (1 : Fin 2) * 1 + 1 * 0 = 0; omega
  have h2 : ∀ k : Fin 128, iblk1 V c 2 t (ix2 p k) = V c main_v23 (ix2 (⟨win1_6.index t (0 : Fin 2) * 5000 + p.val, hr⟩ : Fin 100000) k) := fun k => by
    show V c main_v23 (((cfg1.win 2).blk t).view.emb (ix2 p k)) = _
    refine congrArg _ (funext fun a => Fin.ext ?_)
    match a with
    | ⟨0, _⟩ => show win1_2.index t (0 : Fin 2) * 5000 + 1 * p.val = win1_6.index t (0 : Fin 2) * 5000 + p.val; omega
    | ⟨1, _⟩ => show win1_2.index t (1 : Fin 2) * 128 + 1 * k.val = k.val; omega
  have h3 : ∀ k : Fin 128, iblk1 V c 3 t (ix2 k q) = V c main_arg5 (ix2 k q) := fun k => by
    show V c main_arg5 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * q.val = q.val; omega
  have h4 : ∀ k : Fin 128, iblk1 V c 4 t (ix2 k q) = V c main_arg6 (ix2 k q) := fun k => by
    show V c main_arg6 (((cfg1.win 4).blk t).view.emb (ix2 k q)) = _
    refine congrArg _ (funext fun a => Fin.ext ?_)
    match a with
    | ⟨0, _⟩ => show win1_4.index t (0 : Fin 2) * 128 + 1 * k.val = k.val; omega
    | ⟨1, _⟩ => show win1_4.index t (1 : Fin 2) * 64 + 1 * q.val = q.val; omega
  have h5 : iblk1 V c 5 t (ix1 q) = V c main_arg7 (ix1 q) := by
    show V c main_arg7 (((cfg1.win 5).blk t).view.emb (ix1 q)) = _
    refine congrArg _ (funext fun a => Fin.ext ?_)
    match a with
    | ⟨0, _⟩ => show win1_5.index t (0 : Fin 1) * 64 + 1 * q.val = q.val; omega
  show _ = G1 V c (((cfg1.win 6).blk t).view.emb (ix2 p q))
  rw [he]
  simp only [h0, h1, h2, h3, h4, h5]
  rfl

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v34).slice (win1_6.rect t)).set ↔ _
  rw [View.set_slice_whole, Rect.mem_set_unit]
  exact Iff.rfl

/-- Every entry of the output array lies in the block of the point `row / 5000`. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The output array after the region: the layer's function of the arrays the region found. -/
theorem final1 (c : Dev nD) : (dat1 V c).arrAt 6 cfg1.N = G1 V c :=
  (dat1 V c).arrAt_eq_of_cover 6 (G1 V c) (fun t _ => flushed1_eq V c t) (cover1)

end Cert.KernelIdeal.Blocks1

end
-- ==== Proof.HostRead.lean ====
/-
  What the two regions find in their arrays: the host side of the idealized kernel, read back.

  Before the first region the host slices the edge list into sources and destinations, counts every node's incoming
  edges by scattering ones, clamps the count at one and takes its reciprocal as a column, wraps negative source
  indices, gathers the source rows of the features and scatter-adds them at the destinations. Between the regions it
  does the same gather and scatter-add on the first region's output. These are the very operations the reference
  performs, so each array is written here with the reference's own stage functions: the first aggregation, the
  clamped count, the second aggregation as a function of the hidden layer.
-/
import proofs.«132774_j25426206392892_1_alg».proof.Proof.Gen.KernelIdeal.Frame
import proofs.«132774_j25426206392892_1_alg».proof.Proof.Gen.ReferenceIdeal.Read
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]

/-- The column of reciprocal clamped counts: `1 / max (count) 1` per node, laid out `[100000, 1]`. -/
def invCol (x1 : (⟨S2x1600000, .i32⟩ : BufTy).Contents (Elt F)) : (⟨S100000x1, .f32⟩ : BufTy).Contents (Elt F) :=
  shapeCast _ (Host.divf (Cert.ReferenceIdeal.Read.val_main_v18 (F := F)) (Cert.ReferenceIdeal.Read.val_main_v19 (F := F) x1)) shapeCasts_S100000_S100000x1

/-- The second aggregation as a function of the hidden layer `h`: gather `h`'s rows at the (wrapped) sources and
    scatter-add them at the destinations, into zeros. -/
def aggOf (h : (⟨S100000x128, .f32⟩ : BufTy).Contents (Elt F)) (x1 : (⟨S2x1600000, .i32⟩ : BufTy).Contents (Elt F)) :
    (⟨S100000x128, .f32⟩ : BufTy).Contents (Elt F) :=
  Host.scatterAdd Cert.ReferenceIdeal.scatter_S100000x128_S1600000x1_S1600000x128_1_0_0_1 (Cert.ReferenceIdeal.Read.val_main_v37 (F := F)) (Cert.ReferenceIdeal.Read.val_main_v38 (F := F) x1)
    (Host.gather Cert.ReferenceIdeal.gather_S100000x128_S1600000x1_S1600000x128_1_0_n_n_0_1_1128 h (Cert.ReferenceIdeal.Read.val_main_v35 (F := F) x1))

/-- The reference's second aggregation is that function of ITS hidden layer. -/
theorem aggOf_ref (x0 : (⟨S100000x64, .f32⟩ : BufTy).Contents (Elt F)) (x1 : (⟨S2x1600000, .i32⟩ : BufTy).Contents (Elt F))
    (x2 x3 : (⟨S64x128, .f32⟩ : BufTy).Contents (Elt F)) (x4 : (⟨S128, .f32⟩ : BufTy).Contents (Elt F)) :
    Cert.ReferenceIdeal.Read.val_main_v39 (F := F) x0 x1 x2 x3 x4 = aggOf (Cert.ReferenceIdeal.Read.val_main_v29 (F := F) x0 x1 x2 x3 x4) x1 := rfl

variable (m : (ℓ : Loc nD τ sig) → Buf (Elt F) ℓ) (ρ : Dev nD → PrngReg)

/-! ## Before the first region -/

/-- The first region's aggregated features are the reference's first aggregation of the arguments. -/
theorem agg1_eq (c : Dev nD) :
    V1 m ρ c main_v22 = Cert.ReferenceIdeal.Read.val_main_v13 (F := F) (m ((c : Thread nD τ).loc main_arg0)) (m ((c : Thread nD τ).loc main_arg1)) := by
  show StableHlo.after hostOps0 (W0 m ρ c) (Proc.devRef .tc main_v22) = _
  after_results_simp <;> rfl

/-- The reciprocal-count column the first region finds. -/
theorem inv1_eq (c : Dev nD) : V1 m ρ c main_v12 = invCol (F := F) (m ((c : Thread nD τ).loc main_arg1)) := by
  show StableHlo.after hostOps0 (W0 m ρ c) (Proc.devRef .tc main_v12) = _
  after_results_simp <;> rfl

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_arg4 (c : Dev nD) : V1 m ρ c main_arg4 = m ((c : Thread nD τ).loc main_arg4) := by
  show StableHlo.after hostOps0 (W0 m ρ c) (Proc.devRef .tc main_arg4) = _
  after_results_simp <;> rfl

/-- The sources and the destinations, as the first host stretch leaves them. -/
theorem W1_src (c : Dev nD) : W1 m ρ c (Proc.devRef .tc main_v1) = Cert.ReferenceIdeal.Read.val_main_v1 (F := F) (m ((c : Thread nD τ).loc main_arg1)) := by
  show StableHlo.after hostOps0 (W0 m ρ c) (Proc.devRef .tc main_v1) = _
  after_results_simp <;> rfl
theorem W1_dst (c : Dev nD) : W1 m ρ c (Proc.devRef .tc main_v3) = Cert.ReferenceIdeal.Read.val_main_v3 (F := F) (m ((c : Thread nD τ).loc main_arg1)) := by
  show StableHlo.after hostOps0 (W0 m ρ c) (Proc.devRef .tc main_v3) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-! ## Between the regions: the first region writes only its own output -/

theorem W2_src (c : Dev nD) : W2 m ρ c (Proc.devRef .tc main_v1) = Cert.ReferenceIdeal.Read.val_main_v1 (F := F) (m ((c : Thread nD τ).loc main_arg1)) :=
  (W2_of_ne m ρ c main_v1 (by decide)).trans (W1_src m ρ c)
theorem W2_dst (c : Dev nD) : W2 m ρ c (Proc.devRef .tc main_v3) = Cert.ReferenceIdeal.Read.val_main_v3 (F := F) (m ((c : Thread nD τ).loc main_arg1)) :=
  (W2_of_ne m ρ c main_v3 (by decide)).trans (W1_dst m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
/-- The reciprocal-count column is an input of the first region: it leaves it as found. -/
theorem W2_inv (c : Dev nD) : W2 m ρ c (Proc.devRef .tc main_v12) = invCol (F := F) (m ((c : Thread nD τ).loc main_arg1)) :=
  (W2_arr m ρ c 1).trans ((((dat0 (V1 m ρ) c).arrAt_in 1 rfl _).trans (A_eq0 (V1 m ρ) c 1)).trans (inv1_eq m ρ c))
/-- The hidden layer is the first region's output array. -/
theorem W2_hidden (c : Dev nD) : W2 m ρ c (Proc.devRef .tc main_v23) = (dat0 (V1 m ρ) c).arrAt 6 cfg0.N :=
  W2_arr m ρ c 6

/-! ## What the second region finds -/

/-- Its aggregated features: the second aggregation of the hidden layer. -/
theorem agg2_eq (c : Dev nD) :
    V3 m ρ c main_v33 = aggOf (F := F) (W2 m ρ c (Proc.devRef .tc main_v23)) (m ((c : Thread nD τ).loc main_arg1)) := by
  show StableHlo.after hostOps1 (W2 m ρ c) (Proc.devRef .tc main_v33) = _
  after_results_simp
  rw [W2_src m ρ c, W2_dst m ρ c]
  rfl

theorem inv3_eq (c : Dev nD) : V3 m ρ c main_v12 = invCol (F := F) (m ((c : Thread nD τ).loc main_arg1)) := by
  show StableHlo.after hostOps1 (W2 m ρ c) (Proc.devRef .tc main_v12) = _
  after_results_simp
  exact W2_inv m ρ c

theorem hidden3_eq (c : Dev nD) : V3 m ρ c main_v23 = W2 m ρ c (Proc.devRef .tc main_v23) := by
  show StableHlo.after hostOps1 (W2 m ρ c) (Proc.devRef .tc main_v23) = _
  after_results_simp

theorem V3_arg5 (c : Dev nD) : V3 m ρ c main_arg5 = m ((c : Thread nD τ).loc main_arg5) := by
  show StableHlo.after hostOps1 (W2 m ρ c) (Proc.devRef .tc main_arg5) = _
  after_results_simp
  exact W2_arg5 m ρ c
theorem V3_arg6 (c : Dev nD) : V3 m ρ c main_arg6 = m ((c : Thread nD τ).loc main_arg6) := by
  show StableHlo.after hostOps1 (W2 m ρ c) (Proc.devRef .tc main_arg6) = _
  after_results_simp
  exact W2_arg6 m ρ c
theorem V3_arg7 (c : Dev nD) : V3 m ρ c main_arg7 = m ((c : Thread nD τ).loc main_arg7) := by
  show StableHlo.after hostOps1 (W2 m ρ c) (Proc.devRef .tc main_arg7) = _
  after_results_simp
  exact W2_arg7 m ρ c

end Cert.KernelIdeal.HostRead

end
-- ==== Proof.KernelValue.lean ====
/-
  The idealized kernel's result as ONE function of its eight arguments.

  Chaining what each region leaves with what the host stretches compute: the hidden layer is the rectified dense
  transform of the first aggregation, the reciprocal-count column, the features and the first layer's parameters; the
  result is the dense transform of the second aggregation OF THAT HIDDEN LAYER, the same column, the hidden layer and
  the second layer's parameters.
-/
import proofs.«132774_j25426206392892_1_alg».proof.Proof.KernelRun
import proofs.«132774_j25426206392892_1_alg».proof.Proof.Blocks0
import proofs.«132774_j25426206392892_1_alg».proof.Proof.Blocks1
import proofs.«132774_j25426206392892_1_alg».proof.Proof.HostRead

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostRead

/-- The hidden layer in the kernel's arrangement, from the arguments. -/
def hiddenK (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal)) :
    (⟨S100000x128, .f32⟩ : BufTy).Contents (Elt Ideal) :=
  Cert.Sage.denseRelu 100000 64 128 (Cert.ReferenceIdeal.Read.val_main_v13 (F := Ideal) x0 x1) (invCol (F := Ideal) x1) x0 x2 x3 x4

/-- The result in the kernel's arrangement, from the arguments. -/
def outK (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    (⟨S100000x64, .f32⟩ : BufTy).Contents (Elt Ideal) :=
  Cert.Sage.dense 100000 128 64 (aggOf (F := Ideal) (hiddenK x0 x1 x2 x3 x4) x1) (invCol (F := Ideal) x1) (hiddenK x0 x1 x2 x3 x4) x5 x6 x7

variable (m : (ℓ : Loc nD τ sig) → Buf (Elt Ideal) ℓ) (ρ : Dev nD → PrngReg)

/-- After the first region its output array holds the hidden layer. -/
theorem hidden_eq (c : Dev nD) :
    W2 m ρ c (Proc.devRef .tc main_v23) = hiddenK (m ((c : Thread nD τ).loc main_arg0)) (m ((c : Thread nD τ).loc main_arg1)) (m ((c : Thread nD τ).loc main_arg2)) (m ((c : Thread nD τ).loc main_arg3)) (m ((c : Thread nD τ).loc main_arg4)) := by
  rw [W2_hidden, Blocks0.final0]
  show Cert.Sage.denseRelu 100000 64 128 (V1 m ρ c main_v22) (V1 m ρ c main_v12) (V1 m ρ c main_arg0) (V1 m ρ c main_arg2)
    (V1 m ρ c main_arg3) (V1 m ρ c main_arg4) = _
  rw [agg1_eq, inv1_eq, V1_arg0, V1_arg2, V1_arg3, V1_arg4]
  rfl

/-- At the end the result array holds `outK` of the arguments. -/
theorem result_value (c : Dev nD) :
    W4 m ρ c (Proc.devRef .tc main_v34)
      = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [RunValue.result_eq, Blocks1.final1]
  show Cert.Sage.dense 100000 128 64 (V3 m ρ c main_v33) (V3 m ρ c main_v12) (V3 m ρ c main_v23) (V3 m ρ c main_arg5)
    (V3 m ρ c main_arg6) (V3 m ρ c main_arg7) = _
  rw [agg2_eq, inv3_eq, hidden3_eq, V3_arg5, V3_arg6, V3_arg7, hidden_eq]
  rfl

end Cert.KernelIdeal.KernelValue

end
-- ==== Proof.RefLayers.lean ====
/-
  The reference, layer by layer, at one entry. Each of its two layers divides the aggregated row by the clamped
  neighbour count, multiplies by the left weights, adds the bias, adds the features times the right weights; the
  first layer then clamps below at zero. Read through the reference's stages one operation at a time, entry `(n, j)`
  of a layer is
      ∑ₖ (agg n k / max (cnt n) 1) · wl k j  +  b j  +  ∑ₖ x n k · wr k j.
-/
import proofs.«132774_j25426206392892_1_alg».proof.Proof.Gen.ReferenceIdeal.Read
import Idealize.ShloMosaic.Lib.ValueIdx
import Idealize.ShloMosaic.Lib.IdealHost
import Idealize.ShloMosaic.PureOps.Ideal.Laws

set_option maxRecDepth 16384

noncomputable section

open scoped BigOperators

namespace Cert.ReferenceIdeal.RefValue

open Idealize.ShloMosaic Idealize.ShloMosaic.ValueIdx
open Cert.ReferenceIdeal Cert.ReferenceIdeal.Read

variable (x0 : (⟨S100000x64, .f32⟩ : BufTy).Contents (Elt Ideal)) (x1 : (⟨S2x1600000, .i32⟩ : BufTy).Contents (Elt Ideal))
  (x2 x3 : (⟨S64x128, .f32⟩ : BufTy).Contents (Elt Ideal)) (x4 : (⟨S128, .f32⟩ : BufTy).Contents (Elt Ideal))
  (x5 x6 : (⟨S128x64, .f32⟩ : BufTy).Contents (Elt Ideal)) (x7 : (⟨S64, .f32⟩ : BufTy).Contents (Elt Ideal))

/-! ### Layer 1: `[100000, 64] → [100000, 128]` -/

section
variable (n : Fin 100000) (j : Fin 128) (k : Fin 64)
theorem lA1 : lidx_main_v23 (ix2 n j) k = ix2 n k := funext fun a => Fin.ext (by
  match a with | ⟨0, _⟩ => rfl | ⟨1, _⟩ => rfl)
theorem rA1 : ridx_main_v23 (ix2 n j) k = ix2 k j := funext fun a => Fin.ext (by
  match a with | ⟨0, _⟩ => rfl | ⟨1, _⟩ => rfl)
theorem lB1 : lidx_main_v27 (ix2 n j) k = ix2 n k := funext fun a => Fin.ext (by
  match a with | ⟨0, _⟩ => rfl | ⟨1, _⟩ => rfl)
theorem rB1 : ridx_main_v27 (ix2 n j) k = ix2 k j := funext fun a => Fin.ext (by
  match a with | ⟨0, _⟩ => rfl | ⟨1, _⟩ => rfl)
theorem c2_1 : idx_main_v21 (ix2 n k) = ix2 n (0 : Fin 1) := funext fun a => Fin.ext (by
  match a with | ⟨0, _⟩ => rfl | ⟨1, _⟩ => rfl)
theorem c1_1 : idx_main_v20 (ix2 n (0 : Fin 1)) = ix1 n := funext fun a => Fin.ext (by
  match a with | ⟨0, _⟩ => rfl)
theorem b2_1 : idx_main_v25 (ix2 n j) = ix2 (0 : Fin 1) j := funext fun a => Fin.ext (by
  match a with | ⟨0, _⟩ => rfl | ⟨1, _⟩ => rfl)
theorem b1_1 : idx_main_v24 (ix2 (0 : Fin 1) j) = ix1 j := funext fun a => Fin.ext (by
  match a with | ⟨0, _⟩ => rfl)
end

/-- The divisor broadcast along a row is the clamped count of that row's node. -/
theorem cnt1_apply (n : Fin 100000) (k : Fin 64) :
    val_main_v21 (F := Ideal) x1 (ix2 n k) = max (val_main_v17 (F := Ideal) x1 (ix1 n)) 1 := by
  rw [val_main_v21_apply, c2_1, val_main_v20_apply, c1_1, val_main_v19_apply, val_main_v18_apply, val_main_cst_3_apply]
  simp only [Ideal.maximumf_def, Ideal.ofBits_def, Ideal.ofBits_one_f32]

/-- The bias broadcast along a column. -/
theorem bias1_apply (n : Fin 100000) (j : Fin 128) : val_main_v25 (F := Ideal) x4 (ix2 n j) = x4 (ix1 j) := by
  rw [val_main_v25_apply, b2_1, val_main_v24_apply, b1_1]

/-- The mean times the left weights. -/
theorem dotA1_apply (n : Fin 100000) (j : Fin 128) :
    val_main_v23 (F := Ideal) x0 x1 x2 (ix2 n j)
      = ∑ k : Fin 64, Ideal.div (val_main_v13 (F := Ideal) x0 x1 (ix2 n k)) (max (val_main_v17 (F := Ideal) x1 (ix1 n)) 1) * x2 (ix2 k j) := by
  rw [val_main_v23_apply]
  refine Finset.sum_congr rfl fun k _ => ?_
  rw [lA1, rA1, val_main_v22_apply, cnt1_apply]
  rfl

/-- The features times the right weights. -/
theorem dotB1_apply (n : Fin 100000) (j : Fin 128) :
    val_main_v27 (F := Ideal) x0 x3 (ix2 n j) = ∑ k : Fin 64, x0 (ix2 n k) * x3 (ix2 k j) := by
  rw [val_main_v27_apply]
  refine Finset.sum_congr rfl fun k _ => ?_
  rw [lB1, rB1]

/-- The reference's hidden layer at `(n, j)`. -/
theorem hidden_apply (n : Fin 100000) (j : Fin 128) :
    val_main_v29 (F := Ideal) x0 x1 x2 x3 x4 (ix2 n j)
      = max (((∑ k : Fin 64, Ideal.div (val_main_v13 (F := Ideal) x0 x1 (ix2 n k)) (max (val_main_v17 (F := Ideal) x1 (ix1 n)) 1) * x2 (ix2 k j))
          + x4 (ix1 j)) + ∑ k : Fin 64, x0 (ix2 n k) * x3 (ix2 k j)) 0 := by
  rw [val_main_v29_apply, val_main_v28_apply, val_main_v26_apply, dotA1_apply, dotB1_apply, bias1_apply,
    val_main_call0_v0_apply, val_main_call0_cst_apply]
  simp only [Ideal.maximumf_def, Ideal.addf_def, Ideal.ofBits_def, Ideal.ofBits_zero_f32]

/-! ### Layer 2: `[100000, 128] → [100000, 64]` -/

section
variable (n : Fin 100000) (j : Fin 64) (k : Fin 128)
theorem lA2 : lidx_main_v49 (ix2 n j) k = ix2 n k := funext fun a => Fin.ext (by
  match a with | ⟨0, _⟩ => rfl | ⟨1, _⟩ => rfl)
theorem rA2 : ridx_main_v49 (ix2 n j) k = ix2 k j := funext fun a => Fin.ext (by
  match a with | ⟨0, _⟩ => rfl | ⟨1, _⟩ => rfl)
theorem lB2 : lidx_main_v53 (ix2 n j) k = ix2 n k := funext fun a => Fin.ext (by
  match a with | ⟨0, _⟩ => rfl | ⟨1, _⟩ => rfl)
theorem rB2 : ridx_main_v53 (ix2 n j) k = ix2 k j := funext fun a => Fin.ext (by
  match a with | ⟨0, _⟩ => rfl | ⟨1, _⟩ => rfl)
theorem c2_2 : idx_main_v47 (ix2 n k) = ix2 n (0 : Fin 1) := funext fun a => Fin.ext (by
  match a with | ⟨0, _⟩ => rfl | ⟨1, _⟩ => rfl)
theorem c1_2 : idx_main_v46 (ix2 n (0 : Fin 1)) = ix1 n := funext fun a => Fin.ext (by
  match a with | ⟨0, _⟩ => rfl)
theorem b2_2 : idx_main_v51 (ix2 n j) = ix2 (0 : Fin 1) j := funext fun a => Fin.ext (by
  match a with | ⟨0, _⟩ => rfl | ⟨1, _⟩ => rfl)
theorem b1_2 : idx_main_v50 (ix2 (0 : Fin 1) j) = ix1 j := funext fun a => Fin.ext (by
  match a with | ⟨0, _⟩ => rfl)
end

/-- The divisor broadcast along a row is the clamped count of that row's node. -/
theorem cnt2_apply (n : Fin 100000) (k : Fin 128) :
    val_main_v47 (F := Ideal) x1 (ix2 n k) = max (val_main_v43 (F := Ideal) x1 (ix1 n)) 1 := by
  rw [val_main_v47_apply, c2_2, val_main_v46_apply, c1_2, val_main_v45_apply, val_main_v44_apply, val_main_cst_9_apply]
  simp only [Ideal.maximumf_def, Ideal.ofBits_def, Ideal.ofBits_one_f32]

/-- The bias broadcast along a column. -/
theorem bias2_apply (n : Fin 100000) (j : Fin 64) : val_main_v51 (F := Ideal) x7 (ix2 n j) = x7 (ix1 j) := by
  rw [val_main_v51_apply, b2_2, val_main_v50_apply, b1_2]

/-- The mean times the left weights. -/
theorem dotA2_apply (n : Fin 100000) (j : Fin 64) :
    val_main_v49 (F := Ideal) x0 x1 x2 x3 x4 x5 (ix2 n j)
      = ∑ k : Fin 128, Ideal.div (val_main_v39 (F := Ideal) x0 x1 x2 x3 x4 (ix2 n k)) (max (val_main_v43 (F := Ideal) x1 (ix1 n)) 1) * x5 (ix2 k j) := by
  rw [val_main_v49_apply]
  refine Finset.sum_congr rfl fun k _ => ?_
  rw [lA2, rA2, val_main_v48_apply, cnt2_apply]
  rfl

/-- The features times the right weights. -/
theorem dotB2_apply (n : Fin 100000) (j : Fin 64) :
    val_main_v53 (F := Ideal) x0 x1 x2 x3 x4 x6 (ix2 n j) = ∑ k : Fin 128, val_main_v29 (F := Ideal) x0 x1 x2 x3 x4 (ix2 n k) * x6 (ix2 k j) := by
  rw [val_main_v53_apply]
  refine Finset.sum_congr rfl fun k _ => ?_
  rw [lB2, rB2]

/-- The reference's result at `(n, j)`, over its own hidden layer and second aggregation. -/
theorem out_apply (n : Fin 100000) (j : Fin 64) :
    val_main_v54 (F := Ideal) x0 x1 x2 x3 x4 x5 x6 x7 (ix2 n j)
      = ((∑ k : Fin 128, Ideal.div (val_main_v39 (F := Ideal) x0 x1 x2 x3 x4 (ix2 n k)) (max (val_main_v43 (F := Ideal) x1 (ix1 n)) 1) * x5 (ix2 k j))
          + x7 (ix1 j)) + ∑ k : Fin 128, val_main_v29 (F := Ideal) x0 x1 x2 x3 x4 (ix2 n k) * x6 (ix2 k j) := by
  rw [val_main_v54_apply, val_main_v52_apply, dotA2_apply, dotB2_apply, bias2_apply]
  simp only [Ideal.addf_def]

/-- Both layers count the incoming edges by the same scatter of ones. -/
theorem count_eq : val_main_v43 (F := Ideal) x1 = val_main_v17 (F := Ideal) x1 := rfl

end Cert.ReferenceIdeal.RefValue

end
-- ==== Proof.Bridge.lean ====
/-
  The two programs compute one function. Entry by entry, the kernel's scale-by-reciprocal arrangement of a layer
  equals the reference's divide arrangement (the divisor `max (count) 1` is never zero, and the bias moves by
  commutativity); so the hidden layers agree as whole arrays, hence so do the second aggregations, which are one
  function of the hidden layer, and then the results agree entry by entry by the same identity.
-/
import proofs.«132774_j25426206392892_1_alg».proof.Proof.KernelValue
import proofs.«132774_j25426206392892_1_alg».proof.Proof.RefLayers
import proofs.«132774_j25426206392892_1_alg».proof.Proof.Spec
import Idealize.ShloMosaic.Lib.Pipeline.Value
import Idealize.ShloMosaic.Lib.IdealHost

set_option maxRecDepth 16384

noncomputable section

open scoped BigOperators

namespace Cert.KernelIdeal.Bridge

open Idealize.ShloMosaic Idealize.ShloMosaic.ValueIdx
open Cert.KernelIdeal Cert.KernelIdeal.HostRead Cert.KernelIdeal.KernelValue

/-- The splat of the word `0x3F800000` is the extended real one. -/
theorem one_apply (n : Fin 100000) : Cert.ReferenceIdeal.Read.val_main_v18 (F := Ideal) (ix1 n) = 1 := by
  rw [Cert.ReferenceIdeal.Read.val_main_v18_apply, Cert.ReferenceIdeal.Read.val_main_cst_3_apply]
  simp only [Ideal.ofBits_def, Ideal.ofBits_one_f32]

/-- The clamped count of node `n`. -/
theorem clamp_apply (x1 : (⟨S2x1600000, .i32⟩ : BufTy).Contents (Elt Ideal)) (n : Fin 100000) :
    Cert.ReferenceIdeal.Read.val_main_v19 (F := Ideal) x1 (ix1 n) = max (Cert.ReferenceIdeal.Read.val_main_v17 (F := Ideal) x1 (ix1 n)) 1 := by
  rw [Cert.ReferenceIdeal.Read.val_main_v19_apply, one_apply]
  simp only [Ideal.maximumf_def]

/-- The reciprocal-count column at node `n` is `1 / max (count n) 1`: the `[100000] → [100000, 1]` relayout keeps
    row `n` at row `n`, and the host's quotient is taken entry by entry. -/
theorem invCol_apply (x1 : (⟨S2x1600000, .i32⟩ : BufTy).Contents (Elt Ideal)) (n : Fin 100000) :
    invCol (F := Ideal) x1 (ix2 n (0 : Fin 1)) = Ideal.div 1 (max (Cert.ReferenceIdeal.Read.val_main_v17 (F := Ideal) x1 (ix1 n)) 1) := by
  unfold invCol
  refine (shapeCast_apply _ _ (ix2 n (0 : Fin 1)) (ix1 n) ?_).trans ?_
  · rw [Shape.rowMajor_val_two, Shape.rowMajor_val_one]
    show n.val = n.val * 1 + 0
    omega
  · rw [ValueIdx.hostDivf_apply, one_apply, clamp_apply]

/-- The hidden layers agree. -/
theorem hidden_bridge (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal)) :
    hiddenK x0 x1 x2 x3 x4 = Cert.ReferenceIdeal.Read.val_main_v29 (F := Ideal) x0 x1 x2 x3 x4 := by
  funext i
  obtain ⟨n, j, rfl⟩ : ∃ (n : Fin 100000) (j : Fin 128), i = ix2 n j := ⟨i 0, i 1, eq_ix2 i⟩
  rw [Cert.ReferenceIdeal.RefValue.hidden_apply]
  show max (((∑ k : Fin 64, (Cert.ReferenceIdeal.Read.val_main_v13 (F := Ideal) x0 x1 (ix2 n k) * invCol (F := Ideal) x1 (ix2 n (0 : Fin 1))) * x2 (ix2 k j))
      + ∑ k : Fin 64, x0 (ix2 n k) * x3 (ix2 k j)) + x4 (ix1 j)) 0 = _
  rw [invCol_apply]
  exact congrArg (fun s => max s 0) (Cert.Sage.entry_eq _ _ _ _ _ _)

/-- The results agree. -/
theorem out_bridge (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    outK x0 x1 x2 x3 x4 x5 x6 x7 = Cert.ReferenceIdeal.Read.val_main_v54 (F := Ideal) x0 x1 x2 x3 x4 x5 x6 x7 := by
  funext i
  obtain ⟨n, j, rfl⟩ : ∃ (n : Fin 100000) (j : Fin 64), i = ix2 n j := ⟨i 0, i 1, eq_ix2 i⟩
  rw [Cert.ReferenceIdeal.RefValue.out_apply, Cert.ReferenceIdeal.RefValue.count_eq, aggOf_ref, ← hidden_bridge]
  show ((∑ k : Fin 128, (aggOf (F := Ideal) (hiddenK x0 x1 x2 x3 x4) x1 (ix2 n k) * invCol (F := Ideal) x1 (ix2 n (0 : Fin 1))) * x5 (ix2 k j))
      + ∑ k : Fin 128, hiddenK x0 x1 x2 x3 x4 (ix2 n k) * x6 (ix2 k j)) + x7 (ix1 j) = _
  rw [invCol_apply]
  exact Cert.Sage.entry_eq _ _ _ _ _ _

end Cert.KernelIdeal.Bridge

end
-- ==== Proof.lean ====
/-
  Two layers of neighbourhood-mean aggregation followed by a dense transform, computed two ways.

  Both programs build, from the edge list, each node's in-neighbour count and the sum of its in-neighbours' feature
  rows, and then apply, twice,
      out i = mean i · Wl + x i · Wr + b        (first layer: followed by max · 0),   mean i = agg i / max (cnt i) 1.
  The kernel does the dense part in row blocks of 5000 nodes, scaling `agg i` by a precomputed reciprocal
  `1 / max (cnt i) 1` and adding the bias last; the reference divides and adds the bias in the middle. Over the
  extended reals the divisor `max (cnt i) 1 ≥ 1` is never zero, and off zero `a / c` is `a · c⁻¹` whatever `a` and `c`;
  sums of extended reals commute. So the two results are one function of the arguments, entry by entry, and the
  finiteness of the inputs is never used.

  The frames of the two kernel programs and the reference's run are generated modules; the kernel's run with its
  result named, what each region writes, what the host stretches compute, and the identity of the two functions are
  the modules imported below.
-/
import proofs.«132774_j25426206392892_1_alg».proof.Defs
import proofs.«132774_j25426206392892_1_alg».proof.Proof.Gen.Kernel
import proofs.«132774_j25426206392892_1_alg».proof.Proof.Gen.Kernel.Skeleton
import proofs.«132774_j25426206392892_1_alg».proof.Proof.Gen.Kernel.Launch
import proofs.«132774_j25426206392892_1_alg».proof.Proof.Gen.Kernel.Points
import proofs.«132774_j25426206392892_1_alg».proof.Proof.Gen.Kernel.Frame
import proofs.«132774_j25426206392892_1_alg».proof.Proof.Gen.KernelIdeal
import proofs.«132774_j25426206392892_1_alg».proof.Proof.Gen.KernelIdeal.Skeleton
import proofs.«132774_j25426206392892_1_alg».proof.Proof.Gen.KernelIdeal.Launch
import proofs.«132774_j25426206392892_1_alg».proof.Proof.Gen.KernelIdeal.Points
import proofs.«132774_j25426206392892_1_alg».proof.Proof.Gen.KernelIdeal.Frame
import proofs.«132774_j25426206392892_1_alg».proof.Proof.Gen.ReferenceIdeal
import proofs.«132774_j25426206392892_1_alg».proof.Proof.Gen.ReferenceIdeal.Run
import proofs.«132774_j25426206392892_1_alg».proof.Proof.Gen.ReferenceIdeal.Read
import proofs.«132774_j25426206392892_1_alg».proof.Proof.Gen.Pre_finite_inputs
import proofs.«132774_j25426206392892_1_alg».proof.Proof.KernelRun
import proofs.«132774_j25426206392892_1_alg».proof.Proof.KernelValue
import proofs.«132774_j25426206392892_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result array: the kernel's run names its
    result as `outK` of the arguments, the reference's as its last stage of the same arguments, and the two are one
    function. -/
theorem algebraic : Cert.algebraic_KernelIdeal_ReferenceIdeal := by
  intro m ρ m' ρ' _ hagree
  refine ⟨fun c => Cert.KernelIdeal.KernelValue.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_value m ρ c), (h c).2⟩)
      (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.KernelIdeal.Bridge.out_bridge _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
